-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S256 .f32) (main_arg6 : FVec F S256x256 .f32) (main_arg7 : FVec F S256 .f32) (main_arg8 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S3 : Shape := ⟨1, ![3]⟩
abbrev S1x800000 : Shape := ⟨2, ![1, 800000]⟩
abbrev S800000 : Shape := ⟨1, ![800000]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩

abbrev nBuf : Space → Nat
  | .hbm => 73
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S3, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1, .f32⟩
  | .hbm, ⟨14, _⟩ => ⟨S_, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x256, .f32⟩
  | .hbm, ⟨33, _⟩ => ⟨S1, .f32⟩
  | .hbm, ⟨34, _⟩ => ⟨S_, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .f32⟩
  | .hbm, ⟨44, _⟩ => ⟨S_, .f32⟩
  | .hbm, ⟨45, _⟩ => ⟨S50000x256, .f32⟩
  | .hbm, ⟨46, _⟩ => ⟨S800000x1, .i32⟩
  | .hbm, ⟨47, _⟩ => ⟨S50000x256, .f32⟩
  | .hbm, ⟨48, _⟩ => ⟨S_, .f32⟩
  | .hbm, ⟨49, _⟩ => ⟨S_, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S1, .f32⟩
  | .hbm, ⟨54, _⟩ => ⟨S_, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .f32⟩
  | .hbm, ⟨64, _⟩ => ⟨S_, .f32⟩
  | .hbm, ⟨65, _⟩ => ⟨S50000x256, .f32⟩
  | .hbm, ⟨66, _⟩ => ⟨S800000x1, .i32⟩
  | .hbm, ⟨67, _⟩ => ⟨S50000x256, .f32⟩
  | .hbm, ⟨68, _⟩ => ⟨S_, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S256, .f32⟩
  | .local _ .vmem, ⟨22, _⟩ => ⟨S2000x256, .f32⟩
  | .local _ .vmem, ⟨23, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3_S1_0 : S3.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S3_S1_1 : S3.Slices ![1] S1
  bcast_S_S50000x256 : S_.BroadcastsInDim S50000x256 (![] : Fin 0 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  slices_S3_S1_2 : S3.Slices ![2] S1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v18) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S3 : Shape := ⟨1, ![3]⟩
abbrev S1x800000 : Shape := ⟨2, ![1, 800000]⟩
abbrev S800000 : Shape := ⟨1, ![800000]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S3, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S1, .f32⟩
  | .hbm, ⟨14, _⟩ => ⟨S_, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S1, .f32⟩
  | .hbm, ⟨41, _⟩ => ⟨S_, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | .hbm, ⟨64, _⟩ => ⟨S_, .f32⟩
  | .hbm, ⟨65, _⟩ => ⟨S50000x256, .f32⟩
  | .hbm, ⟨66, _⟩ => ⟨S50000x256, .f32⟩
  | .hbm, ⟨67, _⟩ => ⟨S1, .f32⟩
  | .hbm, ⟨68, _⟩ => ⟨S_, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S_, .f32⟩
  | .hbm, ⟨83, _⟩ => ⟨S_, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_2 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_6 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_8 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3_S1_0 : S3.Slices ![0] S1
  shapeCasts_S1_S_ : S1.ShapeCasts S_
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  slices_S3_S1_1 : S3.Slices ![1] S1
  slices_S3_S1_2 : S3.Slices ![2] S1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its result named. The program is three kernel regions among stretches of host
  operations; its buffers' contents at the boundaries between them are a fold from the launch memory (`W1` … `W6` of the
  frame module: a stretch applies its operations, a region replaces its arrays by what its write-backs leave). Every
  weakly fair execution terminates without a fault, the result buffer ends at the last boundary's contents of it, and
  the nine arguments end as launched.
-/
import proofs.«118169_j74904229642495_1_alg».proof.Proof.Patched.KernelIdeal.Frame

set_option maxRecDepth 16384

noncomputable section

namespace Cert.KernelIdeal.Layers

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer at the last boundary's contents: the launch over the segments as for the frame,
    the final state read at the result buffer as well as at the arguments. -/
theorem run_result : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Layers

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.LibHostRows.lean ====
/-
  Host operations on rank-2 arrays read at an entry, over the extended reals: a plain matrix product
  (`dot_general` M×K by K×N) as the sum over the contracted coordinate; the `broadcast_in_dim` forms of a
  keep-dimensions reduction ([b]→[1,b], [1,b]→[a,b], [a]→[a,1], [a,1]→[a,b], scalar→any); a rank-3 array cut
  along its leading axis; and a host sum along the rows of a matrix as the initial value plus the row's sum.
-/
import proofs.«118169_j74904229642495_1_alg».proof.Proof.LibPlainDot
import Idealize.ShloMosaic.Lib.Pipeline.Value
import Idealize.ShloMosaic.Lib.ValueIdx
import Idealize.ShloMosaic.PureOps.Ideal.Laws

namespace Cert.LibHostRows

open Idealize.ShloMosaic Idealize.ShloMosaic.ValueIdx

variable {α : Type}

/-- Entry `(p, q)` of the host's plain product is `∑ c, lhs (p, c) · rhs (c, q)`. -/
theorem dotGeneral_plain_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q) = ∑ c : Fin K, lhs (ix2 p c) * rhs (ix2 c q) := by
  show FloatOps.dotGeneral (DotDims.plain M K N) prec .single lhs rhs (ix2 p q) = _
  rw [Ideal.dotGeneral_apply, ← Equiv.sum_comp (contrEquiv1 (DotDims.plain M K N) K rfl rfl).symm]
  refine Finset.sum_congr rfl fun c _ => ?_
  rw [Cert.LibPlainDot.plain_lhsIdx, Cert.LibPlainDot.plain_rhsIdx]

/-- A vector `[b]` placed as the one row of `[1, b]` reads, at `(u, c)`, the vector's entry `c`. -/
theorem broadcastInDim_b_1b_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ (![1] : Fin 1 → Fin 2) h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` repeated down `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` placed as the one column of `[a, 1]` reads, at `(p, u)`, the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` repeated along `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape reads the scalar everywhere. -/
theorem broadcastInDim_scalar_apply {t : Shape} (v : (⟨0, ![]⟩ : Shape).Idx → α)
    (h : (⟨0, ![]⟩ : Shape).BroadcastsInDim t (![] : Fin 0 → Fin t.rank)) (j : t.Idx) :
    broadcastInDim t (![] : Fin 0 → Fin t.rank) h v j = v ix0 :=
  broadcastInDim_apply _ h v j ix0 fun ax => ax.elim0

/-- A rank-3 array cut along its leading axis from `o` reads, at `(j, d, e)`, the source at `(k, d, e)` with `k = o + j`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (d : Fin n1) (e : Fin n2) (k : Fin n0) (hk : k.val = o + j.val) :
    extractStridedSlice ⟨3, ![m, n1, n2]⟩ ![o, 0, 0] X h (ix3 j d e) = X (ix3 k d e) :=
  extractStridedSlice_apply _ _ _ _ _ (fun ax => by
    match ax with
    | ⟨0, _⟩ => exact hk
    | ⟨1, _⟩ => exact (Nat.zero_add _).symm
    | ⟨2, _⟩ => exact (Nat.zero_add _).symm)

/-- The host's sum of a matrix along its rows, read at row `p`: the initial value plus the sum of the row. -/
theorem hostReduceAdd_rows_apply {φ : FTy} {a b : ℕ} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (p : Fin a) :
    Host.reduceAdd (F := Ideal) x init h hu (ix1 p) = init ix0 + ∑ k : Fin b, x (ix2 p k) := by
  show Ideal.hostReduceAdd h x (init (Shape.Idx.first hu)) (ix1 p) = _
  rw [Ideal.hostReduceAdd_single h ⟨h.1, Nat.one_pos, h.2⟩ x _ (ix1 p), eq_ix0 (Shape.Idx.first hu)]
  refine congrArg (init ix0 + ·) (Finset.sum_congr rfl fun k _ => congrArg x ?_)
  funext d
  match d with
  | ⟨0, _⟩ => rfl
  | ⟨1, _⟩ => rfl

end Cert.LibHostRows
-- ==== Proof.LayerSpec.lean ====
/-
  One dense layer of the graph network read at an entry, over the extended reals.

  A layer takes the scaled node features `sx` and the aggregated neighbour features `agg` (both `[N, K]`), a weight
  matrix `W` (`[K, C]`) and a bias `b` (`[C]`) to `(sx + agg) · W + b`, optionally followed by the rectifier
  `max · 0`. Entry `(p, q)` of the result depends on row `p` of `sx` and of `agg`, on column `q` of `W` and on
  `b q` only: it is `rowAffine` of those, `(∑ c, (sx (p, c) + agg (p, c)) · W (c, q)) + b q`.

  Two spellings of the layer are read here at an entry and shown to be that number:
  * the host's (`hostAffine`, `hostRelu`): `dot_general` of the sum, plus the bias broadcast as `[C] → [1, C] → [N, C]`,
    then `maximum` against the broadcast zero word;
  * a tile's (`tileAffine`, `tileRelu`): over `R` rows, the sum narrowed to bf16 (the identity on extended reals), a
    matrix product into the zero accumulator, plus the bias cast `[C] → [1, C]` and broadcast to `[R, C]`, then
    `maximumf` against the splat zero word.
  Neither needs any entry to be finite: both are the same sum of the same products.
-/
import proofs.«118169_j74904229642495_1_alg».proof.Proof.LibPlainDot
import proofs.«118169_j74904229642495_1_alg».proof.Proof.LibHostRows
import Idealize.ShloMosaic.Lib.ValueLayout
import Idealize.ShloMosaic.Lib.Pipeline.Value
import Idealize.ShloMosaic.Lib.ValueIdx
import Idealize.ShloMosaic.PureOps.Ideal.Laws

noncomputable section

namespace Cert.GinLayer

open Idealize.ShloMosaic Idealize.ShloMosaic.ValueIdx

/-- The affine map of one combined row against one column: `(∑ c, (x c + a c) · w c) + β`. -/
def rowAffine {K : ℕ} (x a w : Fin K → EReal) (β : EReal) : EReal :=
  (∑ c : Fin K, (x c + a c) * w c) + β

/-- The zero word of the rectifier, as the extended real it denotes (never evaluated: the same word on both sides). -/
abbrev zeroWord : EReal := FloatOps.ofBits (F := Ideal) .f32 0x00000000#32

/-- A block read from offset zero on both axes, and on one. -/
theorem hz2 : (![0, 0] : Fin 2 → Nat) = fun _ => 0 := funext fun a => by fin_cases a <;> rfl
theorem hz1 : (![0] : Fin 1 → Nat) = fun _ => 0 := funext fun a => by fin_cases a <;> rfl

variable {N R K C : ℕ}

/-! ## The host's spelling -/

/-- `(sx + agg) · W + b` as the host computes it. -/
def hostAffine (N K C : ℕ)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (sx agg : FVec Ideal ⟨2, ![N, K]⟩ .f32) (W : FVec Ideal ⟨2, ![K, C]⟩ .f32) (b : FVec Ideal ⟨1, ![C]⟩ .f32) :
    FVec Ideal ⟨2, ![N, C]⟩ .f32 :=
  addf (Host.dotGeneral (F := Ideal) (DotDims.plain N K C) none (addf sx agg) W)
    (broadcastInDim ⟨2, ![N, C]⟩ (![0, 1] : Fin 2 → Fin 2) h2 (broadcastInDim ⟨2, ![1, C]⟩ (![1] : Fin 1 → Fin 2) h1 b))

/-- The host's rectifier: the maximum against the zero word broadcast from a scalar. -/
def hostRelu (N C : ℕ) (h0 : (⟨0, ![]⟩ : Shape).BroadcastsInDim ⟨2, ![N, C]⟩ (![] : Fin 0 → Fin 2))
    (X : FVec Ideal ⟨2, ![N, C]⟩ .f32) : FVec Ideal ⟨2, ![N, C]⟩ .f32 :=
  maximumf X (broadcastInDim ⟨2, ![N, C]⟩ (![] : Fin 0 → Fin 2) h0 (constant (F := Ideal) ⟨0, ![]⟩ .f32 0x00000000#32))

theorem hostAffine_apply (h1 h2) (sx agg : FVec Ideal ⟨2, ![N, K]⟩ .f32) (W : FVec Ideal ⟨2, ![K, C]⟩ .f32)
    (b : FVec Ideal ⟨1, ![C]⟩ .f32) (p : Fin N) (q : Fin C) :
    hostAffine N K C h1 h2 sx agg W b (ix2 p q)
      = rowAffine (fun c => sx (ix2 p c)) (fun c => agg (ix2 p c)) (fun c => W (ix2 c q)) (b (ix1 q)) := by
  unfold hostAffine
  rw [addf_apply, Cert.LibHostRows.dotGeneral_plain_apply, Cert.LibHostRows.broadcastInDim_1b_ab_apply,
    Cert.LibHostRows.broadcastInDim_b_1b_apply]
  rfl

theorem hostRelu_apply (h0) (X : FVec Ideal ⟨2, ![N, C]⟩ .f32) (j : (⟨2, ![N, C]⟩ : Shape).Idx) :
    hostRelu N C h0 X j = max (X j) zeroWord := by
  unfold hostRelu
  rw [maximumf_apply, Cert.LibHostRows.broadcastInDim_scalar_apply (t := ⟨2, ![N, C]⟩)]
  rfl

/-! ## A tile's spelling -/

/-- `(x0 + x1) · w + b` as a tile of `R` rows computes it. -/
def tileAffine (R K C : ℕ) (d : DotDims ⟨2, ![R, K]⟩ ⟨2, ![K, C]⟩ ⟨2, ![R, C]⟩)
    (hx : (⟨2, ![R, K]⟩ : Shape).ShapeCasts ⟨2, ![R, K]⟩) (hb1 : (⟨1, ![C]⟩ : Shape).ShapeCasts ⟨2, ![1, C]⟩)
    (hb2 : (⟨2, ![1, C]⟩ : Shape).Broadcasts ⟨2, ![R, C]⟩) (hbits : FTy.bits .bf16 < FTy.bits .f32)
    (x0 x1 : FVec Ideal ⟨2, ![R, K]⟩ .f32) (w : FVec Ideal ⟨2, ![K, C]⟩ .f32) (b : FVec Ideal ⟨1, ![C]⟩ .f32) :
    FVec Ideal ⟨2, ![R, C]⟩ .f32 :=
  addf (matmul d none (truncf .bf16 (addf (shapeCast ⟨2, ![R, K]⟩ x0 hx) (shapeCast ⟨2, ![R, K]⟩ x1 hx)) hbits)
      (truncf .bf16 w hbits) (constant ⟨2, ![R, C]⟩ .f32 0x00000000#32))
    (broadcastTo ⟨2, ![R, C]⟩ (shapeCast ⟨2, ![1, C]⟩ b hb1) hb2)

/-- A tile's rectifier: the maximum against the splat zero word. -/
def tileRelu (R C : ℕ) (X : FVec Ideal ⟨2, ![R, C]⟩ .f32) : FVec Ideal ⟨2, ![R, C]⟩ .f32 :=
  maximumf X (broadcast ⟨2, ![R, C]⟩ (Scalar.ofBits (F := Ideal) .f32 0x00000000#32))

theorem tileAffine_apply (d : DotDims ⟨2, ![R, K]⟩ ⟨2, ![K, C]⟩ ⟨2, ![R, C]⟩) (hd : d = DotDims.plain R K C) (hx hb1 hb2 hbits)
    (x0 x1 : FVec Ideal ⟨2, ![R, K]⟩ .f32) (w : FVec Ideal ⟨2, ![K, C]⟩ .f32) (b : FVec Ideal ⟨1, ![C]⟩ .f32)
    (r : Fin R) (q : Fin C) :
    tileAffine R K C d hx hb1 hb2 hbits x0 x1 w b (ix2 r q)
      = rowAffine (fun c => x0 (ix2 r c)) (fun c => x1 (ix2 r c)) (fun c => w (ix2 c q)) (b (ix1 q)) := by
  subst hd
  unfold tileAffine
  rw [addf_apply, show matmul (F := Ideal) (DotDims.plain R K C) none = FloatOps.matmul (DotDims.plain R K C) none from rfl,
    Cert.LibPlainDot.matmul_plain_zero_apply, broadcastTo_1b_ab_apply, shapeCast_a_1a_apply, shapeCast_self, shapeCast_self]
  rfl

theorem tileRelu_apply (X : FVec Ideal ⟨2, ![R, C]⟩ .f32) (j : (⟨2, ![R, C]⟩ : Shape).Idx) :
    tileRelu R C X j = max (X j) zeroWord := rfl

/-! ## The three layers of this network: 50000 nodes, 128 → 256 → 256 → 256 channels -/

theorem bias_row : (⟨1, ![256]⟩ : Shape).BroadcastsInDim ⟨2, ![1, 256]⟩ (![1] : Fin 1 → Fin 2) := by decide
theorem bias_rows : (⟨2, ![1, 256]⟩ : Shape).BroadcastsInDim ⟨2, ![50000, 256]⟩ (![0, 1] : Fin 2 → Fin 2) := by decide
theorem zero_splat : (⟨0, ![]⟩ : Shape).BroadcastsInDim ⟨2, ![50000, 256]⟩ (![] : Fin 0 → Fin 2) := by decide

/-- The first layer: 128 channels in, the rectifier after it. -/
def layerA (sx agg : FVec Ideal ⟨2, ![50000, 128]⟩ .f32) (W : FVec Ideal ⟨2, ![128, 256]⟩ .f32) (b : FVec Ideal ⟨1, ![256]⟩ .f32) :
    FVec Ideal ⟨2, ![50000, 256]⟩ .f32 :=
  hostRelu 50000 256 zero_splat (hostAffine 50000 128 256 bias_row bias_rows sx agg W b)

/-- The second layer: 256 channels in, the rectifier after it. -/
def layerB (sx agg : FVec Ideal ⟨2, ![50000, 256]⟩ .f32) (W : FVec Ideal ⟨2, ![256, 256]⟩ .f32) (b : FVec Ideal ⟨1, ![256]⟩ .f32) :
    FVec Ideal ⟨2, ![50000, 256]⟩ .f32 :=
  hostRelu 50000 256 zero_splat (hostAffine 50000 256 256 bias_row bias_rows sx agg W b)

/-- The last layer: 256 channels in, no rectifier. -/
def layerC (sx agg : FVec Ideal ⟨2, ![50000, 256]⟩ .f32) (W : FVec Ideal ⟨2, ![256, 256]⟩ .f32) (b : FVec Ideal ⟨1, ![256]⟩ .f32) :
    FVec Ideal ⟨2, ![50000, 256]⟩ .f32 :=
  hostAffine 50000 256 256 bias_row bias_rows sx agg W b

theorem layerA_apply (sx agg W b) (p : Fin 50000) (q : Fin 256) :
    layerA sx agg W b (ix2 p q)
      = max (rowAffine (fun c => sx (ix2 p c)) (fun c => agg (ix2 p c)) (fun c => W (ix2 c q)) (b (ix1 q))) zeroWord := by
  unfold layerA; rw [hostRelu_apply, hostAffine_apply]

theorem layerB_apply (sx agg W b) (p : Fin 50000) (q : Fin 256) :
    layerB sx agg W b (ix2 p q)
      = max (rowAffine (fun c => sx (ix2 p c)) (fun c => agg (ix2 p c)) (fun c => W (ix2 c q)) (b (ix1 q))) zeroWord := by
  unfold layerB; rw [hostRelu_apply, hostAffine_apply]

theorem layerC_apply (sx agg W b) (p : Fin 50000) (q : Fin 256) :
    layerC sx agg W b (ix2 p q)
      = rowAffine (fun c => sx (ix2 p c)) (fun c => agg (ix2 p c)) (fun c => W (ix2 c q)) (b (ix1 q)) := by
  unfold layerC; rw [hostAffine_apply]

end Cert.GinLayer

end
-- ==== Proof.Region0.lean ====
/-
  The first kernel region read as a whole array. The region walks the 50000 node rows in 25 tiles of 2000; at tile `t` it
  loads rows `2000 t … 2000 t + 1999` of the scaled features and of the aggregated features, the whole weight matrix and
  the whole bias, and stores `max ((x + a) · W + b) 0` into the same rows of its result. Entry `(r, q)` of a tile's result
  is the layer's entry `(2000 t + r, q)`, so every tile writes back its block of ONE array, the first layer of the
  arrays the region found, and the 25 blocks cover that array.
-/
import proofs.«118169_j74904229642495_1_alg».proof.Proof.Patched.KernelIdeal.Frame
import proofs.«118169_j74904229642495_1_alg».proof.Proof.LayerSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.KernelIdeal.GenP Cert.GinLayer

variable (V : (c : Dev nD) → (b : Ref sig .tc) → Buf (Elt Ideal) ((c : Thread nD τ).loc b))

/-- The tile's matrix product is the plain one, 2000×128 by 128×256. -/
theorem dot0_plain : dot_S2000x128_S128x256_S2000x256_1_0_0_1_n_n = DotDims.plain 2000 128 256 := rfl

/-- What a tile stores is the layer's tile spelling of its four loads. -/
theorem pay0_eq (x0 x1 : Vec Ideal S2000x128 .f32) (x2 : Vec Ideal S128x256 .f32) (x3 : Vec Ideal S256 .f32) :
    k0_pay1 x0 x1 x2 x3 = tileRelu 2000 256 (tileAffine 2000 128 256 dot_S2000x128_S128x256_S2000x256_1_0_0_1_n_n
      shapeCasts_S2000x128_S2000x128 shapeCasts_S256_S1x256 broadcasts_S1x256_S2000x256 bitsLt_bf16_f32 x0 x1 x2 x3) := rfl

/-- The index maps over the grid: the row windows (features, aggregate, result) move with the tile, the weights and the
    bias stay at block zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `r` of tile `t`'s block of the scaled features is row `2000 t + r` of the array. -/
theorem iblk0_0_apply (c : Dev nD) (t : Fin cfg0.N) (r : Fin 2000) (k : Fin 128) (p : Fin 50000) (hp : p.val = 2000 * t.val + r.val) :
    (iblk0 V c 0 t : Vec Ideal S2000x128 .f32) (ix2 r k) = (V c main_v18 : S50000x128.Idx → Elt Ideal .f32) (ix2 p k) := by
  obtain ⟨e0, e1, -⟩ := idx_facts0 t
  unfold iblk0
  rw [View.read_apply]
  show V c main_v18 _ = V c main_v18 _
  congr 1
  funext a
  apply Fin.ext
  match a with
  | ⟨0, _⟩ => show win0_0.index t 0 * 2000 + 1 * r.val = p.val; rw [e0, hp]; omega
  | ⟨1, _⟩ => show win0_0.index t 1 * 128 + 1 * k.val = k.val; rw [e1]; omega

/-- Row `r` of tile `t`'s block of the aggregated features is row `2000 t + r` of the array. -/
theorem iblk0_1_apply (c : Dev nD) (t : Fin cfg0.N) (r : Fin 2000) (k : Fin 128) (p : Fin 50000) (hp : p.val = 2000 * t.val + r.val) :
    (iblk0 V c 1 t : Vec Ideal S2000x128 .f32) (ix2 r k) = (V c main_v15 : S50000x128.Idx → Elt Ideal .f32) (ix2 p k) := by
  obtain ⟨-, -, e0, e1, -⟩ := idx_facts0 t
  unfold iblk0
  rw [View.read_apply]
  show V c main_v15 _ = V c main_v15 _
  congr 1
  funext a
  apply Fin.ext
  match a with
  | ⟨0, _⟩ => show win0_1.index t 0 * 2000 + 1 * r.val = p.val; rw [e0, hp]; omega
  | ⟨1, _⟩ => show win0_1.index t 1 * 128 + 1 * k.val = k.val; rw [e1]; omega

/-- Every tile's block of the weights is the whole matrix. -/
theorem iblk0_2_apply (c : Dev nD) (t : Fin cfg0.N) (k : Fin 128) (q : Fin 256) :
    (iblk0 V c 2 t : Vec Ideal S128x256 .f32) (ix2 k q) = (V c main_arg2 : S128x256.Idx → Elt Ideal .f32) (ix2 k q) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t 0 * 128 + 1 * k.val = k.val; rw [e0]; omega
  | ⟨1, _⟩ => show win0_2.index t 1 * 256 + 1 * q.val = q.val; rw [e1]; omega

/-- Every tile's block of the bias is the whole vector. -/
theorem iblk0_3_apply (c : Dev nD) (t : Fin cfg0.N) (q : Fin 256) :
    (iblk0 V c 3 t : Vec Ideal S256 .f32) (ix1 q) = (V c main_arg3 : S256.Idx → Elt Ideal .f32) (ix1 q) := by
  obtain ⟨-, -, -, -, -, -, e0, -⟩ := idx_facts0 t
  unfold iblk0
  rw [View.read_apply]
  show V c main_arg3 _ = V c main_arg3 _
  congr 1
  funext a
  apply Fin.ext
  match a with
  | ⟨0, _⟩ => show win0_3.index t 0 * 256 + 1 * q.val = q.val; rw [e0]; omega

/-- The array the region leaves: the first layer of the arrays it found. -/
abbrev result0 (c : Dev nD) : S50000x256.Idx → Elt Ideal .f32 :=
  layerA (V c main_v18) (V c main_v15) (V c main_arg2) (V c main_arg3)

/-- What tile `t` writes back is its block of that array. -/
theorem flushed0_eq (c : Dev nD) (t : Fin cfg0.N) :
    (dat0 V c).flushed 4 t = ((cfg0.win 4).blk t).view.read (Elt Ideal) (result0 V c) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S128x256) hz2, View.ld_unit_zero (S := S256) hz1]
  rw [pay0_eq]
  obtain ⟨-, -, -, -, -, -, -, e0, e1⟩ := idx_facts0 t
  have ht : t.val < 25 := lt_of_lt_of_eq t.isLt N_0
  funext j
  obtain ⟨r, q, rfl⟩ : ∃ (r : Fin 2000) (q : Fin 256), j = ix2 r q := ⟨j 0, j 1, eq_ix2 j⟩
  have hr : r.val < 2000 := r.isLt
  have hemb : ((cfg0.win 4).blk t).view.emb (ix2 r q) = ix2 (⟨2000 * t.val + r.val, by omega⟩ : Fin 50000) q := by
    funext a
    apply Fin.ext
    match a with
    | ⟨0, _⟩ => show win0_4.index t 0 * 2000 + 1 * r.val = 2000 * t.val + r.val; rw [e0]; omega
    | ⟨1, _⟩ => show win0_4.index t 1 * 256 + 1 * q.val = q.val; rw [e1]; omega
  rw [View.read_apply, hemb]
  show tileRelu 2000 256 _ (ix2 r q) = layerA _ _ _ _ (ix2 _ q)
  rw [tileRelu_apply, tileAffine_apply _ dot0_plain, layerA_apply]
  have h0 : (fun k => (iblk0 V c 0 t : Vec Ideal S2000x128 .f32) (ix2 r k)) = fun k => (V c main_v18 : S50000x128.Idx → Elt Ideal .f32) (ix2 (⟨2000 * t.val + r.val, by omega⟩ : Fin 50000) k) :=
    funext fun k => iblk0_0_apply V c t r k _ rfl
  have h1 : (fun k => (iblk0 V c 1 t : Vec Ideal S2000x128 .f32) (ix2 r k)) = fun k => (V c main_v15 : S50000x128.Idx → Elt Ideal .f32) (ix2 (⟨2000 * t.val + r.val, by omega⟩ : Fin 50000) k) :=
    funext fun k => iblk0_1_apply V c t r k _ rfl
  have h2 : (fun k => (iblk0 V c 2 t : Vec Ideal S128x256 .f32) (ix2 k q)) = fun k => (V c main_arg2 : S128x256.Idx → Elt Ideal .f32) (ix2 k q) :=
    funext fun k => iblk0_2_apply V c t k q
  rw [h0, h1, h2, iblk0_3_apply V c t q]

/-- The 25 tiles' blocks cover the array: row `i` is in tile `i / 2000`. So the region leaves the first layer. -/
theorem final0 (c : Dev nD) : (dat0 V c).arrAt 4 cfg0.N = result0 V c :=
  (dat0 V c).arrAt_eq_of_cover 4 (result0 V c) (fun t _ => flushed0_eq V c t) fun i => by
    have h0 : (i 0 : Nat) < 50000 := (i 0).isLt
    have h1 : (i 1 : Nat) < 256 := (i 1).isLt
    have hN : cfg0.N = 25 := N_0
    let t : Fin cfg0.N := ⟨(i 0 : Nat) / 2000, by rw [hN]; omega⟩
    obtain ⟨-, -, -, -, -, -, -, e0, e1⟩ := idx_facts0 t
    refine ⟨t, flush0_4 t, ?_⟩
    show i ∈ ((View.whole main_v19).slice (win0_4.rect t)).set
    rw [View.set_slice_whole, Rect.mem_set_unit]
    intro a
    match a with
    | ⟨0, _⟩ =>
      show win0_4.index t 0 * 2000 ≤ (i 0 : Nat) ∧ (i 0 : Nat) < win0_4.index t 0 * 2000 + 2000
      rw [e0]; show (i 0 : Nat) / 2000 * 2000 ≤ (i 0 : Nat) ∧ (i 0 : Nat) < (i 0 : Nat) / 2000 * 2000 + 2000; omega
    | ⟨1, _⟩ =>
      show win0_4.index t 1 * 256 ≤ (i 1 : Nat) ∧ (i 1 : Nat) < win0_4.index t 1 * 256 + 256
      rw [e1]; omega

end Cert.KernelIdeal.Layers

end
-- ==== Proof.Region1.lean ====
/-
  The second kernel region read as a whole array: as the first, over 256 input channels. At tile `t` it loads rows
  `2000 t … 2000 t + 1999` of the scaled features and of the aggregated features, the whole 256×256 weight matrix and the
  whole bias, and stores `max ((x + a) · W + b) 0` into the same rows of its result; the 25 blocks written back are the
  blocks of ONE array, the second layer of the arrays the region found, and they cover it.
-/
import proofs.«118169_j74904229642495_1_alg».proof.Proof.Patched.KernelIdeal.Frame
import proofs.«118169_j74904229642495_1_alg».proof.Proof.LayerSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.KernelIdeal.GenP Cert.GinLayer

variable (V : (c : Dev nD) → (b : Ref sig .tc) → Buf (Elt Ideal) ((c : Thread nD τ).loc b))

/-- The tile's matrix product is the plain one, 2000×256 by 256×256. -/
theorem dot1_plain : dot_S2000x256_S256x256_S2000x256_1_0_0_1_n_n = DotDims.plain 2000 256 256 := rfl

/-- What a tile stores is the layer's tile spelling of its four loads. -/
theorem pay1_eq (x0 x1 : Vec Ideal S2000x256 .f32) (x2 : Vec Ideal S256x256 .f32) (x3 : Vec Ideal S256 .f32) :
    k1_pay1 x0 x1 x2 x3 = tileRelu 2000 256 (tileAffine 2000 256 256 dot_S2000x256_S256x256_S2000x256_1_0_0_1_n_n
      shapeCasts_S2000x256_S2000x256 shapeCasts_S256_S1x256 broadcasts_S1x256_S2000x256 bitsLt_bf16_f32 x0 x1 x2 x3) := rfl

/-- The index maps over the grid: the row windows (features, aggregate, result) move with the tile, the weights and the
    bias stay at block zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row `r` of tile `t`'s block of the scaled features is row `2000 t + r` of the array. -/
theorem iblk1_0_apply (c : Dev nD) (t : Fin cfg1.N) (r : Fin 2000) (k : Fin 256) (p : Fin 50000) (hp : p.val = 2000 * t.val + r.val) :
    (iblk1 V c 0 t : Vec Ideal S2000x256 .f32) (ix2 r k) = (V c main_v34 : S50000x256.Idx → Elt Ideal .f32) (ix2 p k) := by
  obtain ⟨e0, e1, -⟩ := idx_facts1 t
  unfold iblk1
  rw [View.read_apply]
  show V c main_v34 _ = V c main_v34 _
  congr 1
  funext a
  apply Fin.ext
  match a with
  | ⟨0, _⟩ => show win1_0.index t 0 * 2000 + 1 * r.val = p.val; rw [e0, hp]; omega
  | ⟨1, _⟩ => show win1_0.index t 1 * 256 + 1 * k.val = k.val; rw [e1]; omega

/-- Row `r` of tile `t`'s block of the aggregated features is row `2000 t + r` of the array. -/
theorem iblk1_1_apply (c : Dev nD) (t : Fin cfg1.N) (r : Fin 2000) (k : Fin 256) (p : Fin 50000) (hp : p.val = 2000 * t.val + r.val) :
    (iblk1 V c 1 t : Vec Ideal S2000x256 .f32) (ix2 r k) = (V c main_v31 : S50000x256.Idx → Elt Ideal .f32) (ix2 p k) := by
  obtain ⟨-, -, e0, e1, -⟩ := idx_facts1 t
  unfold iblk1
  rw [View.read_apply]
  show V c main_v31 _ = V c main_v31 _
  congr 1
  funext a
  apply Fin.ext
  match a with
  | ⟨0, _⟩ => show win1_1.index t 0 * 2000 + 1 * r.val = p.val; rw [e0, hp]; omega
  | ⟨1, _⟩ => show win1_1.index t 1 * 256 + 1 * k.val = k.val; rw [e1]; omega

/-- Every tile's block of the weights is the whole matrix. -/
theorem iblk1_2_apply (c : Dev nD) (t : Fin cfg1.N) (k : Fin 256) (q : Fin 256) :
    (iblk1 V c 2 t : Vec Ideal S256x256 .f32) (ix2 k q) = (V c main_arg4 : S256x256.Idx → Elt Ideal .f32) (ix2 k q) := by
  obtain ⟨-, -, -, -, e0, e1, -⟩ := idx_facts1 t
  unfold iblk1
  rw [View.read_apply]
  show V c main_arg4 _ = V c main_arg4 _
  congr 1
  funext a
  apply Fin.ext
  match a with
  | ⟨0, _⟩ => show win1_2.index t 0 * 256 + 1 * k.val = k.val; rw [e0]; omega
  | ⟨1, _⟩ => show win1_2.index t 1 * 256 + 1 * q.val = q.val; rw [e1]; omega

/-- Every tile's block of the bias is the whole vector. -/
theorem iblk1_3_apply (c : Dev nD) (t : Fin cfg1.N) (q : Fin 256) :
    (iblk1 V c 3 t : Vec Ideal S256 .f32) (ix1 q) = (V c main_arg5 : S256.Idx → Elt Ideal .f32) (ix1 q) := by
  obtain ⟨-, -, -, -, -, -, e0, -⟩ := idx_facts1 t
  unfold iblk1
  rw [View.read_apply]
  show V c main_arg5 _ = V c main_arg5 _
  congr 1
  funext a
  apply Fin.ext
  match a with
  | ⟨0, _⟩ => show win1_3.index t 0 * 256 + 1 * q.val = q.val; rw [e0]; omega

/-- The array the region leaves: the second layer of the arrays it found. -/
abbrev result1 (c : Dev nD) : S50000x256.Idx → Elt Ideal .f32 :=
  layerB (V c main_v34) (V c main_v31) (V c main_arg4) (V c main_arg5)

/-- What tile `t` writes back is its block of that array. -/
theorem flushed1_eq (c : Dev nD) (t : Fin cfg1.N) :
    (dat1 V c).flushed 4 t = ((cfg1.win 4).blk t).view.read (Elt Ideal) (result1 V c) := by
  show (cfg1.win 4).cut (grid1.coords t) ((dat1 V c).after 4 t) = _
  rw [after1_4]
  unfold out1_4
  rw [View.canon_unit_zero hz2]
  simp only [View.ld_unit_zero (S := S2000x256) hz2, View.ld_unit_zero (S := S256x256) hz2, View.ld_unit_zero (S := S256) hz1]
  rw [pay1_eq]
  obtain ⟨-, -, -, -, -, -, -, e0, e1⟩ := idx_facts1 t
  have ht : t.val < 25 := lt_of_lt_of_eq t.isLt N_1
  funext j
  obtain ⟨r, q, rfl⟩ : ∃ (r : Fin 2000) (q : Fin 256), j = ix2 r q := ⟨j 0, j 1, eq_ix2 j⟩
  have hr : r.val < 2000 := r.isLt
  have hemb : ((cfg1.win 4).blk t).view.emb (ix2 r q) = ix2 (⟨2000 * t.val + r.val, by omega⟩ : Fin 50000) q := by
    funext a
    apply Fin.ext
    match a with
    | ⟨0, _⟩ => show win1_4.index t 0 * 2000 + 1 * r.val = 2000 * t.val + r.val; rw [e0]; omega
    | ⟨1, _⟩ => show win1_4.index t 1 * 256 + 1 * q.val = q.val; rw [e1]; omega
  rw [View.read_apply, hemb]
  show tileRelu 2000 256 _ (ix2 r q) = layerB _ _ _ _ (ix2 _ q)
  rw [tileRelu_apply, tileAffine_apply _ dot1_plain, layerB_apply]
  have h0 : (fun k => (iblk1 V c 0 t : Vec Ideal S2000x256 .f32) (ix2 r k)) = fun k => (V c main_v34 : S50000x256.Idx → Elt Ideal .f32) (ix2 (⟨2000 * t.val + r.val, by omega⟩ : Fin 50000) k) :=
    funext fun k => iblk1_0_apply V c t r k _ rfl
  have h1 : (fun k => (iblk1 V c 1 t : Vec Ideal S2000x256 .f32) (ix2 r k)) = fun k => (V c main_v31 : S50000x256.Idx → Elt Ideal .f32) (ix2 (⟨2000 * t.val + r.val, by omega⟩ : Fin 50000) k) :=
    funext fun k => iblk1_1_apply V c t r k _ rfl
  have h2 : (fun k => (iblk1 V c 2 t : Vec Ideal S256x256 .f32) (ix2 k q)) = fun k => (V c main_arg4 : S256x256.Idx → Elt Ideal .f32) (ix2 k q) :=
    funext fun k => iblk1_2_apply V c t k q
  rw [h0, h1, h2, iblk1_3_apply V c t q]

/-- The 25 tiles' blocks cover the array: row `i` is in tile `i / 2000`. So the region leaves the second layer. -/
theorem final1 (c : Dev nD) : (dat1 V c).arrAt 4 cfg1.N = result1 V c :=
  (dat1 V c).arrAt_eq_of_cover 4 (result1 V c) (fun t _ => flushed1_eq V c t) fun i => by
    have h0 : (i 0 : Nat) < 50000 := (i 0).isLt
    have h1 : (i 1 : Nat) < 256 := (i 1).isLt
    have hN : cfg1.N = 25 := N_1
    let t : Fin cfg1.N := ⟨(i 0 : Nat) / 2000, by rw [hN]; omega⟩
    obtain ⟨-, -, -, -, -, -, -, e0, e1⟩ := idx_facts1 t
    refine ⟨t, flush1_4 t, ?_⟩
    show i ∈ ((View.whole main_v35).slice (win1_4.rect t)).set
    rw [View.set_slice_whole, Rect.mem_set_unit]
    intro a
    match a with
    | ⟨0, _⟩ =>
      show win1_4.index t 0 * 2000 ≤ (i 0 : Nat) ∧ (i 0 : Nat) < win1_4.index t 0 * 2000 + 2000
      rw [e0]; show (i 0 : Nat) / 2000 * 2000 ≤ (i 0 : Nat) ∧ (i 0 : Nat) < (i 0 : Nat) / 2000 * 2000 + 2000; omega
    | ⟨1, _⟩ =>
      show win1_4.index t 1 * 256 ≤ (i 1 : Nat) ∧ (i 1 : Nat) < win1_4.index t 1 * 256 + 256
      rw [e1]; omega

end Cert.KernelIdeal.Layers

end
-- ==== Proof.Region2.lean ====
/-
  The third kernel region read as a whole array: as the second, without the rectifier. At tile `t` it loads rows
  `2000 t … 2000 t + 1999` of the scaled features and of the aggregated features, the whole 256×256 weight matrix and the
  whole bias, and stores `(x + a) · W + b` into the same rows of its result; the 25 blocks written back are the blocks
  of ONE array, the last layer of the arrays the region found, and they cover it.
-/
import proofs.«118169_j74904229642495_1_alg».proof.Proof.Patched.KernelIdeal.Frame
import proofs.«118169_j74904229642495_1_alg».proof.Proof.LayerSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Layers

open Cert.KernelIdeal Cert.KernelIdeal.Gen Cert.KernelIdeal.GenP Cert.GinLayer

variable (V : (c : Dev nD) → (b : Ref sig .tc) → Buf (Elt Ideal) ((c : Thread nD τ).loc b))

/-- The tile's matrix product is the plain one, 2000×256 by 256×256. -/
theorem dot2_plain : dot_S2000x256_S256x256_S2000x256_1_0_0_1_n_n = DotDims.plain 2000 256 256 := rfl

/-- What a tile stores is the layer's tile spelling of its four loads. -/
theorem pay2_eq (x0 x1 : Vec Ideal S2000x256 .f32) (x2 : Vec Ideal S256x256 .f32) (x3 : Vec Ideal S256 .f32) :
    k2_pay1 x0 x1 x2 x3 = tileAffine 2000 256 256 dot_S2000x256_S256x256_S2000x256_1_0_0_1_n_n
      shapeCasts_S2000x256_S2000x256 shapeCasts_S256_S1x256 broadcasts_S1x256_S2000x256 bitsLt_bf16_f32 x0 x1 x2 x3 := rfl

/-- The index maps over the grid: the row windows (features, aggregate, result) move with the tile, the weights and the
    bias stay at block zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

/-- Row `r` of tile `t`'s block of the scaled features is row `2000 t + r` of the array. -/
theorem iblk2_0_apply (c : Dev nD) (t : Fin cfg2.N) (r : Fin 2000) (k : Fin 256) (p : Fin 50000) (hp : p.val = 2000 * t.val + r.val) :
    (iblk2 V c 0 t : Vec Ideal S2000x256 .f32) (ix2 r k) = (V c main_v50 : S50000x256.Idx → Elt Ideal .f32) (ix2 p k) := by
  obtain ⟨e0, e1, -⟩ := idx_facts2 t
  unfold iblk2
  rw [View.read_apply]
  show V c main_v50 _ = V c main_v50 _
  congr 1
  funext a
  apply Fin.ext
  match a with
  | ⟨0, _⟩ => show win2_0.index t 0 * 2000 + 1 * r.val = p.val; rw [e0, hp]; omega
  | ⟨1, _⟩ => show win2_0.index t 1 * 256 + 1 * k.val = k.val; rw [e1]; omega

/-- Row `r` of tile `t`'s block of the aggregated features is row `2000 t + r` of the array. -/
theorem iblk2_1_apply (c : Dev nD) (t : Fin cfg2.N) (r : Fin 2000) (k : Fin 256) (p : Fin 50000) (hp : p.val = 2000 * t.val + r.val) :
    (iblk2 V c 1 t : Vec Ideal S2000x256 .f32) (ix2 r k) = (V c main_v47 : S50000x256.Idx → Elt Ideal .f32) (ix2 p k) := by
  obtain ⟨-, -, e0, e1, -⟩ := idx_facts2 t
  unfold iblk2
  rw [View.read_apply]
  show V c main_v47 _ = V c main_v47 _
  congr 1
  funext a
  apply Fin.ext
  match a with
  | ⟨0, _⟩ => show win2_1.index t 0 * 2000 + 1 * r.val = p.val; rw [e0, hp]; omega
  | ⟨1, _⟩ => show win2_1.index t 1 * 256 + 1 * k.val = k.val; rw [e1]; omega

/-- Every tile's block of the weights is the whole matrix. -/
theorem iblk2_2_apply (c : Dev nD) (t : Fin cfg2.N) (k : Fin 256) (q : Fin 256) :
    (iblk2 V c 2 t : Vec Ideal S256x256 .f32) (ix2 k q) = (V c main_arg6 : S256x256.Idx → Elt Ideal .f32) (ix2 k q) := by
  obtain ⟨-, -, -, -, e0, e1, -⟩ := idx_facts2 t
  unfold iblk2
  rw [View.read_apply]
  show V c main_arg6 _ = V c main_arg6 _
  congr 1
  funext a
  apply Fin.ext
  match a with
  | ⟨0, _⟩ => show win2_2.index t 0 * 256 + 1 * k.val = k.val; rw [e0]; omega
  | ⟨1, _⟩ => show win2_2.index t 1 * 256 + 1 * q.val = q.val; rw [e1]; omega

/-- Every tile's block of the bias is the whole vector. -/
theorem iblk2_3_apply (c : Dev nD) (t : Fin cfg2.N) (q : Fin 256) :
    (iblk2 V c 3 t : Vec Ideal S256 .f32) (ix1 q) = (V c main_arg7 : S256.Idx → Elt Ideal .f32) (ix1 q) := by
  obtain ⟨-, -, -, -, -, -, e0, -⟩ := idx_facts2 t
  unfold iblk2
  rw [View.read_apply]
  show V c main_arg7 _ = V c main_arg7 _
  congr 1
  funext a
  apply Fin.ext
  match a with
  | ⟨0, _⟩ => show win2_3.index t 0 * 256 + 1 * q.val = q.val; rw [e0]; omega

/-- The array the region leaves: the last layer of the arrays it found. -/
abbrev result2 (c : Dev nD) : S50000x256.Idx → Elt Ideal .f32 :=
  layerC (V c main_v50) (V c main_v47) (V c main_arg6) (V c main_arg7)

/-- What tile `t` writes back is its block of that array. -/
theorem flushed2_eq (c : Dev nD) (t : Fin cfg2.N) :
    (dat2 V c).flushed 4 t = ((cfg2.win 4).blk t).view.read (Elt Ideal) (result2 V c) := by
  show (cfg2.win 4).cut (grid2.coords t) ((dat2 V c).after 4 t) = _
  rw [after2_4]
  unfold out2_4
  rw [View.canon_unit_zero hz2]
  simp only [View.ld_unit_zero (S := S2000x256) hz2, View.ld_unit_zero (S := S256x256) hz2, View.ld_unit_zero (S := S256) hz1]
  rw [pay2_eq]
  obtain ⟨-, -, -, -, -, -, -, e0, e1⟩ := idx_facts2 t
  have ht : t.val < 25 := lt_of_lt_of_eq t.isLt N_2
  funext j
  obtain ⟨r, q, rfl⟩ : ∃ (r : Fin 2000) (q : Fin 256), j = ix2 r q := ⟨j 0, j 1, eq_ix2 j⟩
  have hr : r.val < 2000 := r.isLt
  have hemb : ((cfg2.win 4).blk t).view.emb (ix2 r q) = ix2 (⟨2000 * t.val + r.val, by omega⟩ : Fin 50000) q := by
    funext a
    apply Fin.ext
    match a with
    | ⟨0, _⟩ => show win2_4.index t 0 * 2000 + 1 * r.val = 2000 * t.val + r.val; rw [e0]; omega
    | ⟨1, _⟩ => show win2_4.index t 1 * 256 + 1 * q.val = q.val; rw [e1]; omega
  rw [View.read_apply, hemb]
  show tileAffine 2000 256 256 _ _ _ _ _ _ _ _ _ (ix2 r q) = layerC _ _ _ _ (ix2 _ q)
  rw [tileAffine_apply _ dot2_plain, layerC_apply]
  have h0 : (fun k => (iblk2 V c 0 t : Vec Ideal S2000x256 .f32) (ix2 r k)) = fun k => (V c main_v50 : S50000x256.Idx → Elt Ideal .f32) (ix2 (⟨2000 * t.val + r.val, by omega⟩ : Fin 50000) k) :=
    funext fun k => iblk2_0_apply V c t r k _ rfl
  have h1 : (fun k => (iblk2 V c 1 t : Vec Ideal S2000x256 .f32) (ix2 r k)) = fun k => (V c main_v47 : S50000x256.Idx → Elt Ideal .f32) (ix2 (⟨2000 * t.val + r.val, by omega⟩ : Fin 50000) k) :=
    funext fun k => iblk2_1_apply V c t r k _ rfl
  have h2 : (fun k => (iblk2 V c 2 t : Vec Ideal S256x256 .f32) (ix2 k q)) = fun k => (V c main_arg6 : S256x256.Idx → Elt Ideal .f32) (ix2 k q) :=
    funext fun k => iblk2_2_apply V c t k q
  rw [h0, h1, h2, iblk2_3_apply V c t q]

/-- The 25 tiles' blocks cover the array: row `i` is in tile `i / 2000`. So the region leaves the last layer. -/
theorem final2 (c : Dev nD) : (dat2 V c).arrAt 4 cfg2.N = result2 V c :=
  (dat2 V c).arrAt_eq_of_cover 4 (result2 V c) (fun t _ => flushed2_eq V c t) fun i => by
    have h0 : (i 0 : Nat) < 50000 := (i 0).isLt
    have h1 : (i 1 : Nat) < 256 := (i 1).isLt
    have hN : cfg2.N = 25 := N_2
    let t : Fin cfg2.N := ⟨(i 0 : Nat) / 2000, by rw [hN]; omega⟩
    obtain ⟨-, -, -, -, -, -, -, e0, e1⟩ := idx_facts2 t
    refine ⟨t, flush2_4 t, ?_⟩
    show i ∈ ((View.whole main_v51).slice (win2_4.rect t)).set
    rw [View.set_slice_whole, Rect.mem_set_unit]
    intro a
    match a with
    | ⟨0, _⟩ =>
      show win2_4.index t 0 * 2000 ≤ (i 0 : Nat) ∧ (i 0 : Nat) < win2_4.index t 0 * 2000 + 2000
      rw [e0]; show (i 0 : Nat) / 2000 * 2000 ≤ (i 0 : Nat) ∧ (i 0 : Nat) < (i 0 : Nat) / 2000 * 2000 + 2000; omega
    | ⟨1, _⟩ =>
      show win2_4.index t 1 * 256 ≤ (i 1 : Nat) ∧ (i 1 : Nat) < win2_4.index t 1 * 256 + 256
      rw [e1]; omega

end Cert.KernelIdeal.Layers

end
-- ==== Proof.KernelValue.lean ====
/-
  The idealized kernel's result as a function of its arguments. The program's buffers at the boundaries between its
  host stretches and its three kernel regions are a fold from the launch memory; read at the buffers the next segment
  consumes, each boundary holds the value the reference computes at the same point of ITS program:
  * before a region, the scaled features `(1 + eps_i) · h` and the aggregated features (the gather of the source rows
    scatter-added at the destination rows) are the same host operations on both sides, applied to equal operands;
  * a region leaves the layer `(sx + agg) · W + b`, rectified for the first two, of what it found (Region0 … Region2),
    which is the reference's `dot_general`, bias and `maximum` of the same operands;
  * buffers a segment does not write (the edge lists, the weights, the biases, eps) keep their contents.
  So the result buffer ends at the reference's last stage of the launch contents of the nine arguments.
-/
import proofs.«118169_j74904229642495_1_alg».proof.Proof.Region0
import proofs.«118169_j74904229642495_1_alg».proof.Proof.Region1
import proofs.«118169_j74904229642495_1_alg».proof.Proof.Region2
import proofs.«118169_j74904229642495_1_alg».proof.Proof.Gen.ReferenceIdeal.Read
import Idealize.ShloMosaic.Lib.StableHlo.Run

set_option maxRecDepth 16384

noncomputable section

namespace Cert.KernelIdeal.Layers

open Cert.KernelIdeal Cert.KernelIdeal.Gen Cert.KernelIdeal.GenP Cert.GinLayer Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes keeps its contents across the stretch: each operation writes
    its one result buffer, another reference. -/
macro "unwritten" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## Up to the first region -/

theorem W1_arg2 : W1 m ρ c (Proc.devRef .tc main_arg2) = (m ((c : Thread nD τ).loc main_arg2)) := by
  show StableHlo.after hostOps0 (W0 m ρ c) (Proc.devRef .tc main_arg2) = W0 m ρ c (Proc.devRef .tc main_arg2)
  unwritten
theorem W1_arg3 : W1 m ρ c (Proc.devRef .tc main_arg3) = (m ((c : Thread nD τ).loc main_arg3)) := by
  show StableHlo.after hostOps0 (W0 m ρ c) (Proc.devRef .tc main_arg3) = W0 m ρ c (Proc.devRef .tc main_arg3)
  unwritten
theorem W1_arg4 : W1 m ρ c (Proc.devRef .tc main_arg4) = (m ((c : Thread nD τ).loc main_arg4)) := by
  show StableHlo.after hostOps0 (W0 m ρ c) (Proc.devRef .tc main_arg4) = W0 m ρ c (Proc.devRef .tc main_arg4)
  unwritten
theorem W1_arg5 : W1 m ρ c (Proc.devRef .tc main_arg5) = (m ((c : Thread nD τ).loc main_arg5)) := by
  show StableHlo.after hostOps0 (W0 m ρ c) (Proc.devRef .tc main_arg5) = W0 m ρ c (Proc.devRef .tc main_arg5)
  unwritten
theorem W1_arg6 : W1 m ρ c (Proc.devRef .tc main_arg6) = (m ((c : Thread nD τ).loc main_arg6)) := by
  show StableHlo.after hostOps0 (W0 m ρ c) (Proc.devRef .tc main_arg6) = W0 m ρ c (Proc.devRef .tc main_arg6)
  unwritten
theorem W1_arg7 : W1 m ρ c (Proc.devRef .tc main_arg7) = (m ((c : Thread nD τ).loc main_arg7)) := by
  show StableHlo.after hostOps0 (W0 m ρ c) (Proc.devRef .tc main_arg7) = W0 m ρ c (Proc.devRef .tc main_arg7)
  unwritten
theorem W1_arg8 : W1 m ρ c (Proc.devRef .tc main_arg8) = (m ((c : Thread nD τ).loc main_arg8)) := by
  show StableHlo.after hostOps0 (W0 m ρ c) (Proc.devRef .tc main_arg8) = W0 m ρ c (Proc.devRef .tc main_arg8)
  unwritten

/-- The source and the destination node of every edge: the two rows of the edge list. -/
theorem W1_v1 : W1 m ρ c (Proc.devRef .tc main_v1) = val_main_v1 (m ((c : Thread nD τ).loc main_arg1)) := by
  show StableHlo.after hostOps0 (W0 m ρ c) (Proc.devRef .tc main_v1) = _
  after_results
  rfl
theorem W1_v3 : W1 m ρ c (Proc.devRef .tc main_v3) = val_main_v3 (m ((c : Thread nD τ).loc main_arg1)) := by
  show StableHlo.after hostOps0 (W0 m ρ c) (Proc.devRef .tc main_v3) = _
  after_results
  rfl
/-- The features scaled by `1 + eps₀`, and the neighbours' features aggregated at every node. -/
theorem W1_v18 : W1 m ρ c (Proc.devRef .tc main_v18) = val_main_v18 (m ((c : Thread nD τ).loc main_arg0)) (m ((c : Thread nD τ).loc main_arg8)) := by
  show StableHlo.after hostOps0 (W0 m ρ c) (Proc.devRef .tc main_v18) = _
  after_results
  rfl
set_option maxHeartbeats 1600000 in
theorem W1_v15 : W1 m ρ c (Proc.devRef .tc main_v15) = val_main_v15 (m ((c : Thread nD τ).loc main_arg0)) (m ((c : Thread nD τ).loc main_arg1)) := by
  show StableHlo.after hostOps0 (W0 m ρ c) (Proc.devRef .tc main_v15) = _
  after_results_simp
  rfl

/-! ## The first region, and up to the second -/

/-- The first region leaves the reference's first hidden layer. -/
theorem W2_v19 : W2 m ρ c (Proc.devRef .tc main_v19) = val_main_v24 (m ((c : Thread nD τ).loc main_arg0)) (m ((c : Thread nD τ).loc main_arg1)) (m ((c : Thread nD τ).loc main_arg2)) (m ((c : Thread nD τ).loc main_arg3)) (m ((c : Thread nD τ).loc main_arg8)) := by
  refine (W2_arr m ρ c 4).trans ?_
  rw [final0 (V1 m ρ) c]
  show layerA (W1 m ρ c (Proc.devRef .tc main_v18)) (W1 m ρ c (Proc.devRef .tc main_v15)) (W1 m ρ c (Proc.devRef .tc main_arg2)) (W1 m ρ c (Proc.devRef .tc main_arg3)) = _
  rw [W1_v18 m ρ c, W1_v15 m ρ c, W1_arg2 m ρ c, W1_arg3 m ρ c]
  rfl
theorem W2_v1 : W2 m ρ c (Proc.devRef .tc main_v1) = val_main_v1 (m ((c : Thread nD τ).loc main_arg1)) :=
  (W2_of_ne m ρ c main_v1 (by decide)).trans (W1_v1 m ρ c)
theorem W2_v3 : W2 m ρ c (Proc.devRef .tc main_v3) = val_main_v3 (m ((c : Thread nD τ).loc main_arg1)) :=
  (W2_of_ne m ρ c main_v3 (by decide)).trans (W1_v3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)

theorem W3_v1 : W3 m ρ c (Proc.devRef .tc main_v1) = val_main_v1 (m ((c : Thread nD τ).loc main_arg1)) := by
  refine Eq.trans ?_ (W2_v1 m ρ c)
  show StableHlo.after hostOps1 (W2 m ρ c) (Proc.devRef .tc main_v1) = W2 m ρ c (Proc.devRef .tc main_v1)
  unwritten
theorem W3_v3 : W3 m ρ c (Proc.devRef .tc main_v3) = val_main_v3 (m ((c : Thread nD τ).loc main_arg1)) := by
  refine Eq.trans ?_ (W2_v3 m ρ c)
  show StableHlo.after hostOps1 (W2 m ρ c) (Proc.devRef .tc main_v3) = W2 m ρ c (Proc.devRef .tc main_v3)
  unwritten
theorem W3_arg4 : W3 m ρ c (Proc.devRef .tc main_arg4) = (m ((c : Thread nD τ).loc main_arg4)) := by
  refine Eq.trans ?_ (W2_arg4 m ρ c)
  show StableHlo.after hostOps1 (W2 m ρ c) (Proc.devRef .tc main_arg4) = W2 m ρ c (Proc.devRef .tc main_arg4)
  unwritten
theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = W2 m ρ c (Proc.devRef .tc main_arg5)
  unwritten
theorem W3_arg6 : W3 m ρ c (Proc.devRef .tc main_arg6) = (m ((c : Thread nD τ).loc main_arg6)) := by
  refine Eq.trans ?_ (W2_arg6 m ρ c)
  show StableHlo.after hostOps1 (W2 m ρ c) (Proc.devRef .tc main_arg6) = W2 m ρ c (Proc.devRef .tc main_arg6)
  unwritten
theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = W2 m ρ c (Proc.devRef .tc main_arg7)
  unwritten
theorem W3_arg8 : W3 m ρ c (Proc.devRef .tc main_arg8) = (m ((c : Thread nD τ).loc main_arg8)) := by
  refine Eq.trans ?_ (W2_arg8 m ρ c)
  show StableHlo.after hostOps1 (W2 m ρ c) (Proc.devRef .tc main_arg8) = W2 m ρ c (Proc.devRef .tc main_arg8)
  unwritten
/-- The first hidden layer scaled by `1 + eps₁`, and its rows aggregated along the edges. -/
theorem W3_v34 : W3 m ρ c (Proc.devRef .tc main_v34) = val_main_v39 (m ((c : Thread nD τ).loc main_arg0)) (m ((c : Thread nD τ).loc main_arg1)) (m ((c : Thread nD τ).loc main_arg2)) (m ((c : Thread nD τ).loc main_arg3)) (m ((c : Thread nD τ).loc main_arg8)) := by
  show StableHlo.after hostOps1 (W2 m ρ c) (Proc.devRef .tc main_v34) = _
  after_results
  rw [W2_v19 m ρ c, W2_arg8 m ρ c]
  rfl
set_option maxHeartbeats 1600000 in
theorem W3_v31 : W3 m ρ c (Proc.devRef .tc main_v31) = val_main_v36 (m ((c : Thread nD τ).loc main_arg0)) (m ((c : Thread nD τ).loc main_arg1)) (m ((c : Thread nD τ).loc main_arg2)) (m ((c : Thread nD τ).loc main_arg3)) (m ((c : Thread nD τ).loc main_arg8)) := by
  show StableHlo.after hostOps1 (W2 m ρ c) (Proc.devRef .tc main_v31) = _
  after_results_simp
  rw [W2_v19 m ρ c, W2_v1 m ρ c, W2_v3 m ρ c]
  rfl

/-! ## The second region, and up to the third -/

/-- The second region leaves the reference's second hidden layer. -/
theorem W4_v35 : W4 m ρ c (Proc.devRef .tc main_v35) = val_main_v45 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  refine (W4_arr m ρ c 4).trans ?_
  rw [final1 (V3 m ρ) c]
  show layerB (W3 m ρ c (Proc.devRef .tc main_v34)) (W3 m ρ c (Proc.devRef .tc main_v31)) (W3 m ρ c (Proc.devRef .tc main_arg4)) (W3 m ρ c (Proc.devRef .tc main_arg5)) = _
  rw [W3_v34 m ρ c, W3_v31 m ρ c, W3_arg4 m ρ c, W3_arg5 m ρ c]
  rfl
theorem W4_v1 : W4 m ρ c (Proc.devRef .tc main_v1) = val_main_v1 (m ((c : Thread nD τ).loc main_arg1)) :=
  (W4_of_ne m ρ c main_v1 (by decide)).trans (W3_v1 m ρ c)
theorem W4_v3 : W4 m ρ c (Proc.devRef .tc main_v3) = val_main_v3 (m ((c : Thread nD τ).loc main_arg1)) :=
  (W4_of_ne m ρ c main_v3 (by decide)).trans (W3_v3 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)

theorem W5_arg6 : W5 m ρ c (Proc.devRef .tc main_arg6) = (m ((c : Thread nD τ).loc main_arg6)) := by
  refine Eq.trans ?_ (W4_arg6 m ρ c)
  show StableHlo.after hostOps2 (W4 m ρ c) (Proc.devRef .tc main_arg6) = W4 m ρ c (Proc.devRef .tc main_arg6)
  unwritten
theorem W5_arg7 : W5 m ρ c (Proc.devRef .tc main_arg7) = (m ((c : Thread nD τ).loc main_arg7)) := by
  refine Eq.trans ?_ (W4_arg7 m ρ c)
  show StableHlo.after hostOps2 (W4 m ρ c) (Proc.devRef .tc main_arg7) = W4 m ρ c (Proc.devRef .tc main_arg7)
  unwritten
/-- The second hidden layer scaled by `1 + eps₂`, and its rows aggregated along the edges. -/
theorem W5_v50 : W5 m ρ c (Proc.devRef .tc main_v50) = val_main_v60 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  show StableHlo.after hostOps2 (W4 m ρ c) (Proc.devRef .tc main_v50) = _
  after_results
  rw [W4_v35 m ρ c, W4_arg8 m ρ c]
  rfl
set_option maxHeartbeats 1600000 in
theorem W5_v47 : W5 m ρ c (Proc.devRef .tc main_v47) = val_main_v57 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  show StableHlo.after hostOps2 (W4 m ρ c) (Proc.devRef .tc main_v47) = _
  after_results_simp
  rw [W4_v35 m ρ c, W4_v1 m ρ c, W4_v3 m ρ c]
  rfl

/-! ## The third region: the result -/

/-- The result buffer ends at the reference's last stage of the launch contents of the arguments. -/
theorem W6_v51 : W6 m ρ c (Proc.devRef .tc main_v51) = val_main_v65 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 4).trans ?_
  rw [final2 (V5 m ρ) c]
  show layerC (W5 m ρ c (Proc.devRef .tc main_v50)) (W5 m ρ c (Proc.devRef .tc main_v47)) (W5 m ρ c (Proc.devRef .tc main_arg6)) (W5 m ρ c (Proc.devRef .tc main_arg7)) = _
  rw [W5_v50 m ρ c, W5_v47 m ρ c, W5_arg6 m ρ c, W5_arg7 m ρ c]
  rfl

end Cert.KernelIdeal.Layers

end
-- ==== Proof.lean ====
/-
  A three-layer graph isomorphism network on 50000 nodes and 800000 edges: the kernel program against its plain reference.

  Both programs compute, for i = 0, 1, 2 and h₀ = x,
      agg_i = the rows of h_i gathered at the edges' source nodes and scatter-added at their destination nodes,
      h_{i+1} = ((1 + eps_i) · h_i + agg_i) · W_i + b_i,   rectified (max · 0) for i = 0, 1.
  The host operations (the edge lists, the gather and the scatter-add, the scaling by 1 + eps_i) are the same operations
  in the same order in both programs. They differ in the dense part of a layer: the reference adds, multiplies by the
  weights with one `dot_general`, adds the broadcast bias and takes the maximum with zero on whole arrays; the kernel
  does it in a region per layer, 25 tiles of 2000 rows, each tile narrowing its operands to bf16 before a matrix
  product into a zero accumulator. On the extended reals a narrowing is the identity and both spellings of an entry are
  the same sum `(∑ c, (sx (p, c) + agg (p, c)) · W (c, q)) + b q` (LayerSpec), so no law beyond reading the two
  spellings at an entry is used, and the inputs' finiteness is never needed.

  * Region0, Region1, Region2: what each region leaves in its result array is the reference's layer of the arrays the
    region found (each tile's write-back is its block of that one array; the blocks cover it).
  * KernelRun: the kernel program runs, its result buffer at the last of the buffer contents folded through the
    program's segments.
  * KernelValue: that fold, read at the result buffer, is the reference's last stage applied to the launch contents of
    the arguments — stage by stage, the same operations of equal operands.
  * Here: the frames, and the two runs ending in equal results.
  `preserves` is trivial: the idealization rewrote nothing.
-/
import proofs.«118169_j74904229642495_1_alg».proof.Defs
import proofs.«118169_j74904229642495_1_alg».proof.Proof.Gen.Kernel
import proofs.«118169_j74904229642495_1_alg».proof.Proof.Gen.KernelIdeal
import proofs.«118169_j74904229642495_1_alg».proof.Proof.Gen.ReferenceIdeal
import proofs.«118169_j74904229642495_1_alg».proof.Proof.Gen.Pre_finite_inputs
import proofs.«118169_j74904229642495_1_alg».proof.Proof.Patched.Kernel.Frame
import proofs.«118169_j74904229642495_1_alg».proof.Proof.Patched.KernelIdeal.Frame
import proofs.«118169_j74904229642495_1_alg».proof.Proof.Gen.ReferenceIdeal.Run
import proofs.«118169_j74904229642495_1_alg».proof.Proof.Gen.ReferenceIdeal.Read
import proofs.«118169_j74904229642495_1_alg».proof.Proof.KernelRun
import proofs.«118169_j74904229642495_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the nine arguments both programs run and end with equal results: the kernel's result is
    the reference's last stage of ITS arguments (KernelValue), the reference's result that stage of its own, and the
    arguments agree. -/
theorem algebraic : Cert.algebraic_KernelIdeal_ReferenceIdeal := by
  intro m ρ m' ρ' _ hagree
  refine ⟨fun c => Cert.KernelIdeal.GenP.W6 m ρ c (Proc.devRef .tc Cert.KernelIdeal.main_v51),
    Cert.KernelIdeal.Layers.run_result m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v65 m' c = Cert.KernelIdeal.GenP.W6 m ρ c (Proc.devRef .tc Cert.KernelIdeal.main_v51)
  rw [Cert.ReferenceIdeal.Read.val_main_v65_eq, Cert.KernelIdeal.Layers.W6_v51 m ρ c]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
